-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x64 : Shape := ⟨2, ![50000, 64]⟩
abbrev S800000x96 : Shape := ⟨2, ![800000, 96]⟩
abbrev S2x800000 : Shape := ⟨2, ![2, 800000]⟩
abbrev S416x512 : Shape := ⟨2, ![416, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S800000x96 : S_.BroadcastsInDim S800000x96 (![] : Fin 0 → Fin S800000x96.rank)
  reducesTo_S800000x96_S_d0_1 : S800000x96.ReducesTo [0, 1] S_
  bcast_S_S416x512 : S_.BroadcastsInDim S416x512 (![] : Fin 0 → Fin S416x512.rank)
  reducesTo_S416x512_S_d0_1 : S416x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg5 : FVec F S416x512 .f32) (main_arg6 : FVec F S512 .f32) (main_arg7 : FVec F S512x256 .f32) (main_arg8 : FVec F S256 .f32) (main_v13 : IVec S_ 1) (main_v16 : IVec S800000x96 1) : IVec S_ 1 :=
  let main_c_5 : IVec S_ 1 := constantI S_ 1 1#1
  let main_v17 : IVec S_ 1 := (fun x v => Host.reduce IntOp.andi x v reducesTo_S800000x96_S_d0_1 h_S_) main_v16 main_c_5
  let main_v18 : IVec S_ 1 := andi main_v13 main_v17
  let main_v19 : FVec F S416x512 .f32 := Host.absf main_arg5
  let main_cst_6 : FVec F S_ .f32 := constant S_ .f32 0x7F800000#32
  let main_v20 : FVec F S416x512 .f32 := broadcastInDim S416x512 ![] bcast_S_S416x512 main_cst_6
  let main_v21 : IVec S416x512 1 := cmpf .olt main_v19 main_v20
  let main_c_7 : IVec S_ 1 := constantI S_ 1 1#1
  let main_v22 : IVec S_ 1 := (fun x v => Host.reduce IntOp.andi x v reducesTo_S416x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x256 .f32 := Host.absf main_arg7
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : FVec F S50000x128 .f32) (main_arg2 : FVec F S50000x64 .f32) (main_arg3 : FVec F S800000x96 .f32) (main_arg4 : IVec S2x800000 32) (main_arg5 : FVec F S416x512 .f32) (main_arg6 : FVec F S512 .f32) (main_arg7 : FVec F S512x256 .f32) (main_arg8 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S800000x96 .f32 := Host.absf main_arg3
  let main_cst_4 : FVec F S_ .f32 := constant S_ .f32 0x7F800000#32
  let main_v15 : FVec F S800000x96 .f32 := broadcastInDim S800000x96 ![] bcast_S_S800000x96 main_cst_4
  let main_v16 : IVec S800000x96 1 := cmpf .olt main_v14 main_v15
  fn_part1 (F := F) main_arg5 main_arg6 main_arg7 main_arg8 main_v13 main_v16
-- ==== Kernel.lean ====
abbrev S50000x128 : Shape := ⟨2, ![50000, 128]⟩
abbrev S50000x64 : Shape := ⟨2, ![50000, 64]⟩
abbrev S800000x96 : Shape := ⟨2, ![800000, 96]⟩
abbrev S2x800000 : Shape := ⟨2, ![2, 800000]⟩
abbrev S416x512 : Shape := ⟨2, ![416, 512]⟩
abbrev S512 : Shape := ⟨1, ![512]⟩
abbrev S512x256 : Shape := ⟨2, ![512, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S50000x96 : Shape := ⟨2, ![50000, 96]⟩
abbrev S800000x1 : Shape := ⟨2, ![800000, 1]⟩
abbrev S256x512 : Shape := ⟨2, ![256, 512]⟩
abbrev S64x512 : Shape := ⟨2, ![64, 512]⟩
abbrev S96x512 : Shape := ⟨2, ![96, 512]⟩
abbrev S1x512 : Shape := ⟨2, ![1, 512]⟩
abbrev S1x256 : Shape := ⟨2, ![1, 256]⟩
abbrev S50000x256 : Shape := ⟨2, ![50000, 256]⟩
abbrev S2000x128 : Shape := ⟨2, ![2000, 128]⟩
abbrev S2000x64 : Shape := ⟨2, ![2000, 64]⟩
abbrev S2000x96 : Shape := ⟨2, ![2000, 96]⟩
abbrev S2000x256 : Shape := ⟨2, ![2000, 256]⟩
abbrev S2000x512 : Shape := ⟨2, ![2000, 512]⟩

abbrev nBuf : Space → Nat
  | .hbm => 21
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x64, .f32⟩
  | .hbm, ⟨3, _⟩ => ⟨S800000x96, .f32⟩
  | .hbm, ⟨4, _⟩ => ⟨S2x800000, .i32⟩
  | .hbm, ⟨5, _⟩ => ⟨S416x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x96, .f32⟩
  | .hbm, ⟨13, _⟩ => ⟨S800000x1, .i32⟩
  | .hbm, ⟨14, _⟩ => ⟨S50000x96, .f32⟩
  | .hbm, ⟨15, _⟩ => ⟨S256x512, .f32⟩
  | .hbm, ⟨16, _⟩ => ⟨S64x512, .f32⟩
  | .hbm, ⟨17, _⟩ => ⟨S96x512, .f32⟩
  | .hbm, ⟨18, _⟩ => ⟨S1x512, .f32⟩
  | .hbm, ⟨19, _⟩ => ⟨S1x256, .f32⟩
  | .hbm, ⟨20, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x64, .f32⟩
  | .local _ .vmem, ⟨5, _⟩ => ⟨S2000x64, .f32⟩
  | .local _ .vmem, ⟨6, _⟩ => ⟨S2000x96, .f32⟩
  | .local _ .vmem, ⟨7, _⟩ => ⟨S2000x96, .f32⟩
  | .local _ .vmem, ⟨8, _⟩ => ⟨S256x512, .f32⟩
  | .local _ .vmem, ⟨9, _⟩ => ⟨S64x512, .f32⟩
  | .local _ .vmem, ⟨10, _⟩ => ⟨S96x512, .f32⟩
  | .local _ .vmem, ⟨11, _⟩ => ⟨S1x512, .f32⟩
  | .local _ .vmem, ⟨12, _⟩ => ⟨S512x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x800000_S1x800000_0_0 : S2x800000.Slices ![0, 0] S1x800000
  shapeCasts_S1x800000_S800000 : S1x800000.ShapeCasts S800000
  bcast_S_S50000x96 : S_.BroadcastsInDim S50000x96 (![] : Fin 0 → Fin S50000x96.rank)
  bcast_S800000_S800000x1_0 : S800000.BroadcastsInDim S800000x1 (![0] : Fin 1 → Fin S800000x1.rank)
  slices_S416x512_S256x512_0_0 : S416x512.Slices ![0, 0] S256x512
  slices_S416x512_S64x512_256_0 : S416x512.Slices ![256, 0] S64x512
  slices_S416x512_S96x512_320_0 : S416x512.Slices ![320, 0] S96x512
  shapeCasts_S512_S1x512 : S512.ShapeCasts S1x512
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  concatenates_S2000x128_S2000x128_S2000x256_d1 : Shape.Concatenates [S2000x128, S2000x128] S2000x256 1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S2000x64_S2000x64_0_0 : ∀ a, (![0, 0] : Fin 2 → Nat) a + S2000x64.size a ≤ S2000x64.size a
  h_S2000x64 : 0 < S2000x64.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  inb_S96x512_S96x512_0_0 : ∀ a, (![0, 0] : Fin 2 → Nat) a + S96x512.size a ≤ S96x512.size a
  h_S96x512 : 0 < S96x512.numel
  shapeCasts_S96x512_S96x512 : S96x512.ShapeCasts S96x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  scatter_S50000x96_S800000x1_S800000x96_1_0_0_1_wf : ScatterDims.WF S50000x96 S800000x1 S800000x96 [1] [0] [0] 1
  dot_S2000x256_S256x512_S2000x512_1_0_0_1_n_n_wf : DotDims.WF S2000x256 S256x512 S2000x512 [1] [0] [0] [1] [] []
  dot_S2000x64_S64x512_S2000x512_1_0_0_1_n_n_wf : DotDims.WF S2000x64 S64x512 S2000x512 [1] [0] [0] [1] [] []
  dot_S2000x96_S96x512_S2000x512_1_0_0_1_n_n_wf : DotDims.WF S2000x96 S96x512 S2000x512 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x96.size a ≤ S50000x96.size a
  hwx0_3 : ∀ i : grid0.Coords, EltTy.bits .f32 = 32 ∨ (Rect.block (s := S50000x96) S2000x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x512.size a ≤ S64x512.size a
  hwx0_5 : ∀ i : grid0.Coords, EltTy.bits .f32 = 32 ∨ (Rect.block (s := S64x512) S64x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S96x512.size a ≤ S96x512.size a
  hwx0_6 : ∀ i : grid0.Coords, EltTy.bits .f32 = 32 ∨ (Rect.block (s := S96x512) S96x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .f32 = 32 ∨ (Rect.block (s := S512x256) S512x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x256.size a ≤ S50000x256.size a
  hwx0_10 : ∀ i : grid0.Coords, EltTy.bits .f32 = 32 ∨ (Rect.block (s := S50000x256) S2000x256.size (cc0_transform_10 i) (hinb0_10 i)).WholeWords (EltTy.packing .f32)

variable [Facts₀]

def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x64_S64x512_S2000x512_1_0_0_1_n_n : DotDims S2000x64 S64x512 S2000x512 where
  lhsContracting := [1]
  rhsContracting := [0]
  lhsNonContracting := [0]
  rhsNonContracting := [1]
  lhsBatch := []
  rhsBatch := []
  wf := dot_S2000x64_S64x512_S2000x512_1_0_0_1_n_n_wf
def dot_S2000x96_S96x512_S2000x512_1_0_0_1_n_n : DotDims S2000x96 S96x512 S2000x512 where
  lhsContracting := [1]
  rhsContracting := [0]
  lhsNonContracting := [0]
  rhsNonContracting := [1]
  lhsBatch := []
  rhsBatch := []
  wf := dot_S2000x96_S96x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x96.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S64x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S96x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S2000x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x64 : Shape := ⟨2, ![50000, 64]⟩
abbrev S800000x96 : Shape := ⟨2, ![800000, 96]⟩
abbrev S2x800000 : Shape := ⟨2, ![2, 800000]⟩
abbrev S416x512 : Shape := ⟨2, ![416, 512]⟩
abbrev S512 : Shape := ⟨1, ![512]⟩
abbrev S512x256 : Shape := ⟨2, ![512, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S50000x96 : Shape := ⟨2, ![50000, 96]⟩
abbrev S800000x1 : Shape := ⟨2, ![800000, 1]⟩
abbrev S50000x416 : Shape := ⟨2, ![50000, 416]⟩
abbrev S50000x512 : Shape := ⟨2, ![50000, 512]⟩
abbrev S1x512 : Shape := ⟨2, ![1, 512]⟩
abbrev S50000x256 : Shape := ⟨2, ![50000, 256]⟩
abbrev S1x256 : Shape := ⟨2, ![1, 256]⟩

abbrev nBuf : Space → Nat
  | .hbm => 27
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x64, .f32⟩
  | .hbm, ⟨3, _⟩ => ⟨S800000x96, .f32⟩
  | .hbm, ⟨4, _⟩ => ⟨S2x800000, .i32⟩
  | .hbm, ⟨5, _⟩ => ⟨S416x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x96, .f32⟩
  | .hbm, ⟨13, _⟩ => ⟨S800000x1, .i32⟩
  | .hbm, ⟨14, _⟩ => ⟨S50000x96, .f32⟩
  | .hbm, ⟨15, _⟩ => ⟨S50000x416, .f32⟩
  | .hbm, ⟨16, _⟩ => ⟨S50000x512, .f32⟩
  | .hbm, ⟨17, _⟩ => ⟨S1x512, .f32⟩
  | .hbm, ⟨18, _⟩ => ⟨S50000x512, .f32⟩
  | .hbm, ⟨19, _⟩ => ⟨S50000x512, .f32⟩
  | .hbm, ⟨20, _⟩ => ⟨S_, .f32⟩
  | .hbm, ⟨21, _⟩ => ⟨S50000x512, .f32⟩
  | .hbm, ⟨22, _⟩ => ⟨S50000x512, .f32⟩
  | .hbm, ⟨23, _⟩ => ⟨S50000x256, .f32⟩
  | .hbm, ⟨24, _⟩ => ⟨S1x256, .f32⟩
  | .hbm, ⟨25, _⟩ => ⟨S50000x256, .f32⟩
  | .hbm, ⟨26, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S50000x96 : S_.BroadcastsInDim S50000x96 (![] : Fin 0 → Fin S50000x96.rank)
  bcast_S800000_S800000x1_0 : S800000.BroadcastsInDim S800000x1 (![0] : Fin 1 → Fin S800000x1.rank)
  concatenates_S50000x128_S50000x128_S50000x64_S50000x96_S50000x416_d1 : Shape.Concatenates [S50000x128, S50000x128, S50000x64, S50000x96] S50000x416 1
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000x96_S800000x1_S800000x96_1_0_0_1_wf : ScatterDims.WF S50000x96 S800000x1 S800000x96 [1] [0] [0] 1
  dot_S50000x416_S416x512_S50000x512_1_0_0_1_n_n_wf : DotDims.WF S50000x416 S416x512 S50000x512 [1] [0] [0] [1] [] []
  dot_S50000x512_S512x256_S50000x256_1_0_0_1_n_n_wf : DotDims.WF S50000x512 S512x256 S50000x256 [1] [0] [0] [1] [] []

variable [Facts₀]

def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x416_S416x512_S50000x512_1_0_0_1_n_n : DotDims S50000x416 S416x512 S50000x512 where
  lhsContracting := [1]
  rhsContracting := [0]
  lhsNonContracting := [0]
  rhsNonContracting := [1]
  lhsBatch := []
  rhsBatch := []
  wf := dot_S50000x416_S416x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.LibConcatCols.lean ====
/-
  Arrays joined side by side, read and summed.

  Several rank-2 arrays with the same number of rows, joined along the column axis, form one wider array: column
  `pre + j` of the join, where `pre` is the total width of the pieces before piece `k`, is column `j` of piece `k`.
  A sum over all the columns of the join is therefore the sum over the columns of the first pieces plus the sum over
  the columns of the last ones: a sum over `Fin n` with `n = a + b` splits at `a`. Both facts hold in any additive
  commutative monoid; no cancellation is used.
-/
import Idealize.ShloMosaic.Lib.Pipeline.Value
import Idealize.ShloMosaic.Lib.ValueIdx

noncomputable section

namespace Cert.Lib

open Idealize.ShloMosaic Idealize.ShloMosaic.ValueIdx
open scoped BigOperators

/-- A sum over `n = a + b` positions is the sum over the first `a` of them plus the sum over the last `b`. -/
theorem sum_fin_add {M : Type*} [AddCommMonoid M] {a b n : ℕ} (h : a + b = n) (f : Fin n → M) :
    ∑ k, f k = ∑ k : Fin a, f ⟨k.val, by have := k.isLt; omega⟩ + ∑ k : Fin b, f ⟨a + k.val, by have := k.isLt; omega⟩ := by
  subst h
  rw [Fin.sum_univ_add]
  rfl

/-- A join of rank-2 arrays along the column axis, read at row `r` and column `pre + j`: piece `k`, whose columns
    start at `pre` (the widths of the pieces before it add up to `pre`), at `(r, j)`. -/
theorem concat_cols_apply {α : Type} {R C : ℕ} (xs : List ((s : Shape) × (s.Idx → α)))
    (h : Shape.Concatenates (xs.map (·.1)) ⟨2, ![R, C]⟩ 1)
    (k : ℕ) (hk : k < xs.length) {n : ℕ} (x : (⟨2, ![R, n]⟩ : Shape).Idx → α) (hxk : xs[k] = ⟨⟨2, ![R, n]⟩, x⟩)
    (pre : ℕ)
    (hpre : (((xs.take k).map (·.1)).map fun s : Shape =>
      if h : s.rank = (⟨2, ![R, C]⟩ : Shape).rank then s.size ((1 : Fin (⟨2, ![R, C]⟩ : Shape).rank).cast h.symm) else 0).sum = pre)
    (r : Fin R) (j : Fin n) (hj : pre + j.val < C) :
    concatenate ⟨2, ![R, C]⟩ 1 xs h (ix2 r ⟨pre + j.val, hj⟩) = x (ix2 r j) := by
  refine concatenate_apply_piece 1 xs h _ k hk _ x hxk rfl pre hpre (ix2 r j) (fun b hb => ?_) rfl
  match b with
  | ⟨0, _⟩ => rfl
  | ⟨1, _⟩ => exact absurd rfl hb

end Cert.Lib

end
-- ==== Proof.MlpSpec.lean ====
/-
  The node update as one function of the arrays.

  Each node `r` carries four feature rows — its own features `x r` (128 numbers), its recurrent state `xl r` (128), its
  encoded position `z r` (64) and the sum `agg r` of the attributes of the edges that point at it (96). The update is a
  two-layer perceptron of the 416 numbers laid side by side:

      h r k   = max (Σ_j cat r j · W1 j k + b1 k) 0            (512 hidden units)
      out r q = Σ_k h r k · W2 k q + b2 q                       (256 outputs)

  A sum over the 416 joined columns is the sum over the four rows taken one after the other, each against its own band
  of rows of `W1` (rows 0–127, 128–255, 256–319, 320–415). `pre` is the first layer's sum written that way, for one node
  and one hidden unit; `mlp` is the whole update. Everything is on the extended reals, where sums and products are
  total, addition is commutative and associative, and nothing here needs a finite entry.
-/
import Idealize.ShloMosaic.PureOps.Ideal.Laws
import Idealize.ShloMosaic.Lib.ValueIdx

noncomputable section

namespace Cert.Mlp

open Idealize.ShloMosaic Idealize.ShloMosaic.ValueIdx
open scoped BigOperators

/-- The first layer's sum for one node and one hidden unit: the node's four rows `a0 a1 a2 a3` against the unit's
    weights — `wa` for the first 256 joined columns (the two 128-wide rows), `wb` for the next 64, `wc` for the last
    96 — plus the unit's bias `β`. -/
def pre (a0 a1 : Fin 128 → EReal) (a2 : Fin 64 → EReal) (a3 : Fin 96 → EReal)
    (wa : Fin 256 → EReal) (wb : Fin 64 → EReal) (wc : Fin 96 → EReal) (β : EReal) : EReal :=
  (((∑ j : Fin 128, a0 j * wa ⟨j.val, by have := j.isLt; omega⟩
      + ∑ j : Fin 128, a1 j * wa ⟨128 + j.val, by have := j.isLt; omega⟩)
      + ∑ j : Fin 64, a2 j * wb j)
      + ∑ j : Fin 96, a3 j * wc j)
    + β

/-- One output of one node: the hidden units `hid k`, cut off below at zero, against the output's weights `w2`, plus
    its bias `β2`. -/
def outAt (hid : Fin 512 → EReal) (w2 : Fin 512 → EReal) (β2 : EReal) : EReal :=
  (∑ k : Fin 512, max (hid k) (Ideal.ofBits .f32 0x00000000#32) * w2 k) + β2

/-- The update of all 50000 nodes: output `q` of node `r`. -/
def mlp (x xl : (⟨2, ![50000, 128]⟩ : Shape).Idx → EReal) (z : (⟨2, ![50000, 64]⟩ : Shape).Idx → EReal)
    (agg : (⟨2, ![50000, 96]⟩ : Shape).Idx → EReal) (W1 : (⟨2, ![416, 512]⟩ : Shape).Idx → EReal)
    (b1 : (⟨1, ![512]⟩ : Shape).Idx → EReal) (W2 : (⟨2, ![512, 256]⟩ : Shape).Idx → EReal)
    (b2 : (⟨1, ![256]⟩ : Shape).Idx → EReal) : (⟨2, ![50000, 256]⟩ : Shape).Idx → EReal := fun i =>
  outAt
    (fun k => pre (fun j => x (ix2 (i 0) j)) (fun j => xl (ix2 (i 0) j)) (fun j => z (ix2 (i 0) j))
      (fun j => agg (ix2 (i 0) j))
      (fun j => W1 (ix2 (⟨j.val, by have := j.isLt; omega⟩ : Fin 416) k))
      (fun j => W1 (ix2 (⟨256 + j.val, by have := j.isLt; omega⟩ : Fin 416) k))
      (fun j => W1 (ix2 (⟨320 + j.val, by have := j.isLt; omega⟩ : Fin 416) k))
      (b1 (ix1 k)))
    (fun k => W2 (ix2 k (i 1)))
    (b2 (ix1 (i 1)))

end Cert.Mlp

end
-- ==== Proof.RefJoined.lean ====
/-
  The reference computes `mlp`.

  The reference joins the four feature arrays side by side into one [50000, 416] array, multiplies it by `W1`, adds
  `b1`, cuts off below at zero, multiplies by `W2` and adds `b2`. Read at output `q` of node `r`, the first product
  is a sum over the 416 joined columns; splitting it at 320, then at 256, then at 128 gives the four sums of `pre`,
  because column `j`, `128 + j`, `256 + j`, `320 + j` of the join is column `j` of `x`, `xl`, `z`, `agg`. The edge
  sum `agg` is whatever the scatter of the edge attributes produced: it enters as one array and is never opened.
-/
import proofs.«116554_j50242527429369_2_alg».proof.Proof.Gen.ReferenceIdeal.Read
import proofs.«116554_j50242527429369_2_alg».proof.Proof.LibConcatCols
import proofs.«116554_j50242527429369_2_alg».proof.Proof.MlpSpec

noncomputable section

namespace Cert.ReferenceIdeal.RefValue

open Cert.ReferenceIdeal Cert.ReferenceIdeal.Gen Cert.ReferenceIdeal.Read Idealize.ShloMosaic Idealize.ShloMosaic.ValueIdx
open scoped BigOperators

variable (x0 x1 : (⟨S50000x128, .f32⟩ : BufTy).Contents (Elt Ideal)) (x2 : (⟨S50000x64, .f32⟩ : BufTy).Contents (Elt Ideal))
  (x3 : (⟨S800000x96, .f32⟩ : BufTy).Contents (Elt Ideal)) (x4 : (⟨S2x800000, .i32⟩ : BufTy).Contents (Elt Ideal))

/-- Column `j` of the join is column `j` of the node features, -/
theorem joined_x (r : Fin 50000) (j : Fin 128) (hj : j.val < 416) :
    val_main_v5 (F := Ideal) x0 x1 x2 x3 x4 (ix2 r ⟨j.val, hj⟩) = x0 (ix2 r j) := by
  unfold val_main_v5
  have e := Cert.Lib.concat_cols_apply
    [⟨S50000x128, x0⟩, ⟨S50000x128, x1⟩, ⟨S50000x64, x2⟩, ⟨S50000x96, val_main_v4 (F := Ideal) x3 x4⟩]
    concatenates_S50000x128_S50000x128_S50000x64_S50000x96_S50000x416_d1 0 (by simp) x0 rfl 0 rfl r j (by show 0 + j.val < 416; omega)
  simpa only [Nat.zero_add] using e

/-- column `128 + j` is column `j` of the recurrent state, -/
theorem joined_xl (r : Fin 50000) (j : Fin 128) (hj : 128 + j.val < 416) :
    val_main_v5 (F := Ideal) x0 x1 x2 x3 x4 (ix2 r ⟨128 + j.val, hj⟩) = x1 (ix2 r j) := by
  unfold val_main_v5
  exact Cert.Lib.concat_cols_apply
    [⟨S50000x128, x0⟩, ⟨S50000x128, x1⟩, ⟨S50000x64, x2⟩, ⟨S50000x96, val_main_v4 (F := Ideal) x3 x4⟩]
    concatenates_S50000x128_S50000x128_S50000x64_S50000x96_S50000x416_d1 1 (by simp) x1 rfl 128 rfl r j hj

/-- column `256 + j` is column `j` of the encoded position, -/
theorem joined_z (r : Fin 50000) (j : Fin 64) (hj : 256 + j.val < 416) :
    val_main_v5 (F := Ideal) x0 x1 x2 x3 x4 (ix2 r ⟨256 + j.val, hj⟩) = x2 (ix2 r j) := by
  unfold val_main_v5
  exact Cert.Lib.concat_cols_apply
    [⟨S50000x128, x0⟩, ⟨S50000x128, x1⟩, ⟨S50000x64, x2⟩, ⟨S50000x96, val_main_v4 (F := Ideal) x3 x4⟩]
    concatenates_S50000x128_S50000x128_S50000x64_S50000x96_S50000x416_d1 2 (by simp) x2 rfl 256 rfl r j hj

/-- and column `320 + j` is column `j` of the edge sum. -/
theorem joined_agg (r : Fin 50000) (j : Fin 96) (hj : 320 + j.val < 416) :
    val_main_v5 (F := Ideal) x0 x1 x2 x3 x4 (ix2 r ⟨320 + j.val, hj⟩) = val_main_v4 (F := Ideal) x3 x4 (ix2 r j) := by
  unfold val_main_v5
  exact Cert.Lib.concat_cols_apply
    [⟨S50000x128, x0⟩, ⟨S50000x128, x1⟩, ⟨S50000x64, x2⟩, ⟨S50000x96, val_main_v4 (F := Ideal) x3 x4⟩]
    concatenates_S50000x128_S50000x128_S50000x64_S50000x96_S50000x416_d1 3 (by simp) (val_main_v4 (F := Ideal) x3 x4) rfl 320 rfl r j hj

variable (x5 : (⟨S416x512, .f32⟩ : BufTy).Contents (Elt Ideal)) (x6 : (⟨S512, .f32⟩ : BufTy).Contents (Elt Ideal))
  (x7 : (⟨S512x256, .f32⟩ : BufTy).Contents (Elt Ideal)) (x8 : (⟨S256, .f32⟩ : BufTy).Contents (Elt Ideal))

/-- Hidden unit `k` of node `r`, as the reference computes it: the sum over the 416 joined columns, split at 320, 256
    and 128 into the four rows' sums, plus the bias, cut off below at zero. -/
theorem hidden_eq (r : Fin 50000) (k : Fin 512) :
    val_main_v10 (F := Ideal) x0 x1 x2 x3 x4 x5 x6 (ix2 r k)
      = max (Cert.Mlp.pre (fun j => x0 (ix2 r j)) (fun j => x1 (ix2 r j)) (fun j => x2 (ix2 r j))
          (fun j => val_main_v4 (F := Ideal) x3 x4 (ix2 r j))
          (fun j => x5 (ix2 (⟨j.val, by have := j.isLt; omega⟩ : Fin 416) k))
          (fun j => x5 (ix2 (⟨256 + j.val, by have := j.isLt; omega⟩ : Fin 416) k))
          (fun j => x5 (ix2 (⟨320 + j.val, by have := j.isLt; omega⟩ : Fin 416) k))
          (x6 (ix1 k))) (Ideal.ofBits .f32 0x00000000#32) := by
  rw [val_main_v10_apply, val_main_v9_apply, val_main_call0_v0_apply, val_main_call0_cst_apply, val_main_v6_apply,
    val_main_v8_apply, val_main_v7_apply]
  simp only [Ideal.addf_def, Ideal.maximumf_def, Ideal.ofBits_def]
  refine congrArg₂ max ?_ rfl
  unfold Cert.Mlp.pre
  refine congrArg₂ (· + ·) ?_ (congrArg x6 (funext fun a => by match a with | ⟨0, _⟩ => rfl))
  have hl : ∀ J : Fin 416, lidx_main_v6 (ix2 r k) J = ix2 r J := fun J =>
    funext fun a => by match a with | ⟨0, _⟩ => rfl | ⟨1, _⟩ => rfl
  have hr : ∀ J : Fin 416, ridx_main_v6 (ix2 r k) J = ix2 J k := fun J =>
    funext fun a => by match a with | ⟨0, _⟩ => rfl | ⟨1, _⟩ => rfl
  simp only [hl, hr]
  rw [Cert.Lib.sum_fin_add (show 320 + 96 = 416 from rfl), Cert.Lib.sum_fin_add (show 256 + 64 = 320 from rfl),
    Cert.Lib.sum_fin_add (show 128 + 128 = 256 from rfl)]
  refine congrArg₂ (· + ·) (congrArg₂ (· + ·) (congrArg₂ (· + ·) ?_ ?_) ?_) ?_
  · exact Finset.sum_congr rfl fun j _ => congrArg₂ (· * ·) (joined_x x0 x1 x2 x3 x4 r j _) rfl
  · exact Finset.sum_congr rfl fun j _ => congrArg₂ (· * ·) (joined_xl x0 x1 x2 x3 x4 r j _) rfl
  · exact Finset.sum_congr rfl fun j _ => congrArg₂ (· * ·) (joined_z x0 x1 x2 x3 x4 r j _) rfl
  · exact Finset.sum_congr rfl fun j _ => congrArg₂ (· * ·) (joined_agg x0 x1 x2 x3 x4 r j _) rfl

/-- The reference's result is `mlp` of its arguments, with the scattered edge sum as `agg`. -/
theorem ref_eq :
    val_main_v14 (F := Ideal) x0 x1 x2 x3 x4 x5 x6 x7 x8
      = Cert.Mlp.mlp x0 x1 x2 (val_main_v4 (F := Ideal) x3 x4) x5 x6 x7 x8 := by
  funext i
  obtain ⟨r, q, rfl⟩ : ∃ (r : Fin 50000) (q : Fin 256), i = ix2 r q := ⟨i 0, i 1, eq_ix2 i⟩
  rw [val_main_v14_apply, val_main_v11_apply, val_main_v13_apply, val_main_v12_apply]
  simp only [Ideal.addf_def]
  unfold Cert.Mlp.mlp Cert.Mlp.outAt
  refine congrArg₂ (· + ·) (Finset.sum_congr rfl fun k _ => ?_)
    (congrArg x8 (funext fun a => by match a with | ⟨0, _⟩ => rfl))
  have el : lidx_main_v11 (ix2 r q) k = ix2 r k := funext fun a => by match a with | ⟨0, _⟩ => rfl | ⟨1, _⟩ => rfl
  have er : ridx_main_v11 (ix2 r q) k = ix2 k q := funext fun a => by match a with | ⟨0, _⟩ => rfl | ⟨1, _⟩ => rfl
  rw [el, er]
  exact congrArg₂ (· * ·) (hidden_eq x0 x1 x2 x3 x4 x5 x6 r k) rfl

end Cert.ReferenceIdeal.RefValue

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.KernelPoint.lean ====
/-
  What one grid point computes, entry by entry.

  At a grid point the kernel holds 2000 consecutive nodes' rows `X`, `XL`, `Z`, `A` and the whole weights: the three
  bands `Wa` (rows 0–255 of `W1`), `Wb` (rows 256–319), `Wc` (rows 320–415), the bias rows and `W2`. It joins `X` and
  `XL` side by side and multiplies by `Wa`, adds `Z · Wb` and `A · Wc`, adds the bias, cuts off below at zero,
  multiplies by `W2` and adds the second bias. A change of float format is the identity on the extended reals and each
  product into a zero accumulator is a plain row-by-column sum, so entry `(p, q)` of the block is `outAt` of the hidden
  units `max (pre …) 0` of row `p`: the sum over the 256 joined columns splits at 128 into the sums over `X` and `XL`.
-/
import proofs.«116554_j50242527429369_2_alg».proof.Proof.Gen.KernelIdeal.Value
import proofs.«116554_j50242527429369_2_alg».proof.Proof.LibConcatCols
import proofs.«116554_j50242527429369_2_alg».proof.Proof.LibMatDot
import proofs.«116554_j50242527429369_2_alg».proof.Proof.MlpSpec

noncomputable section

namespace Cert.KernelIdeal.Point

open Cert.KernelIdeal Cert.KernelIdeal.Gen Cert.KernelIdeal.Value Idealize.ShloMosaic Idealize.ShloMosaic.ValueIdx
open scoped BigOperators

/-- Two 128-wide blocks joined side by side, times a 256-row weight block, into the zero accumulator: at `(p, k)` the
    sum over the first block's columns against weight rows 0–127 plus the sum over the second's against rows 128–255. -/
theorem joined_product (l0 l1 : FVec Ideal S2000x128 .bf16) (w : FVec Ideal S256x512 .bf16)
    (h : Shape.Concatenates [S2000x128, S2000x128] S2000x256 1) (p : Fin 2000) (k : Fin 512) :
    matmul dot_S2000x256_S256x512_S2000x512_1_0_0_1_n_n none
        (concatenate S2000x256 1 [⟨S2000x128, l0⟩, ⟨S2000x128, l1⟩] h) w (constant S2000x512 .f32 0x00000000#32) (ix2 p k)
      = ∑ j : Fin 128, l0 (ix2 p j) * w (ix2 (⟨j.val, by have := j.isLt; omega⟩ : Fin 256) k)
        + ∑ j : Fin 128, l1 (ix2 p j) * w (ix2 (⟨128 + j.val, by have := j.isLt; omega⟩ : Fin 256) k) := by
  refine (Cert.Lib.matmul_plain_zero_apply dot_S2000x256_S256x512_S2000x512_1_0_0_1_n_n_wf none _ w p k).trans ?_
  rw [Cert.Lib.sum_fin_add (show 128 + 128 = 256 from rfl)]
  refine congrArg₂ (· + ·) (Finset.sum_congr rfl fun j _ => congrArg₂ (· * ·) ?_ rfl)
    (Finset.sum_congr rfl fun j _ => congrArg₂ (· * ·) ?_ rfl)
  · have e := Cert.Lib.concat_cols_apply [⟨S2000x128, l0⟩, ⟨S2000x128, l1⟩] h 0 (by simp) l0 rfl 0 rfl p j
      (by show 0 + j.val < 256; omega)
    simpa only [Nat.zero_add] using e
  · exact Cert.Lib.concat_cols_apply [⟨S2000x128, l0⟩, ⟨S2000x128, l1⟩] h 1 (by simp) l1 rfl 128 rfl p j _

variable (P0 P1 : Vec Ideal S2000x128 .f32) (P2 : Vec Ideal S256x512 .f32) (P3 : Vec Ideal S2000x64 .f32)
  (P4 : Vec Ideal S64x512 .f32) (P5 : Vec Ideal S2000x96 .f32) (P6 : Vec Ideal S96x512 .f32) (P7 : Vec Ideal S1x512 .f32)
  (P8 : Vec Ideal S512x256 .f32) (P9 : Vec Ideal S1x256 .f32)

/-- The block's product with `W2` at `(p, q)`: the sum over the hidden units of row `p`, each `max (pre …) 0`, against
    column `q` of `W2`. -/
theorem pay2_apply (p : Fin 2000) (q : Fin 256) :
    k0_pay2 P0 P1 P2 P3 P4 P5 P6 P7 P8 (ix2 p q)
      = ∑ k : Fin 512, max (Cert.Mlp.pre (fun j => P0 (ix2 p j)) (fun j => P1 (ix2 p j)) (fun j => P3 (ix2 p j))
            (fun j => P5 (ix2 p j)) (fun j => P2 (ix2 j k)) (fun j => P4 (ix2 j k)) (fun j => P6 (ix2 j k))
            (P7 (ix2 (0 : Fin 1) k))) (Ideal.ofBits .f32 0x00000000#32) * P8 (ix2 k q) := by
  unfold k0_pay2
  refine (Cert.Lib.matmul_plain_zero_apply dot_S2000x512_S512x256_S2000x256_1_0_0_1_n_n_wf none _ _ p q).trans ?_
  refine Finset.sum_congr rfl fun k _ => congrArg₂ (· * ·) ?_ rfl
  rw [shapeCast_self P2, shapeCast_self P4, shapeCast_self P5, shapeCast_self P6, shapeCast_self P7]
  simp only [truncf_apply, maximumf_apply, addf_apply, broadcast_apply, Ideal.ofBits_def]
  unfold Cert.Mlp.pre
  refine congrArg₂ max (congrArg₂ (· + ·) (congrArg₂ (· + ·) (congrArg₂ (· + ·) ?_ ?_) ?_) ?_) rfl
  · exact joined_product _ _ _ _ p k
  · exact Cert.Lib.matmul_plain_zero_apply dot_S2000x64_S64x512_S2000x512_1_0_0_1_n_n_wf none _ _ p k
  · exact Cert.Lib.matmul_plain_zero_apply dot_S2000x96_S96x512_S2000x512_1_0_0_1_n_n_wf none _ _ p k
  · exact broadcastTo_apply P7 broadcasts_S1x512_S2000x512 (ix2 p k) (ix2 (0 : Fin 1) k) (fun a => match a with
      | ⟨0, _⟩ => by show 0 = (if (1 : Nat) = 1 then 0 else p.val); rw [if_pos rfl]
      | ⟨1, _⟩ => by show k.val = (if (512 : Nat) = 1 then 0 else k.val); rw [if_neg (by decide)])

/-- Entry `(p, q)` of the block the point writes back: `outAt` of row `p`'s hidden units, column `q` of `W2` and
    entry `q` of the second bias row. -/
theorem block_apply (p : Fin 2000) (q : Fin 256) :
    E10 P0 P1 P2 P3 P4 P5 P6 P7 P8 P9 (ix2 p q)
      = Cert.Mlp.outAt
          (fun k => Cert.Mlp.pre (fun j => P0 (ix2 p j)) (fun j => P1 (ix2 p j)) (fun j => P3 (ix2 p j))
            (fun j => P5 (ix2 p j)) (fun j => P2 (ix2 j k)) (fun j => P4 (ix2 j k)) (fun j => P6 (ix2 j k))
            (P7 (ix2 (0 : Fin 1) k)))
          (fun k => P8 (ix2 k q)) (P9 (ix2 (0 : Fin 1) q)) := by
  have e0 : ix10_0 (ix2 p q) = ix2 p q := funext fun a => by match a with | ⟨0, _⟩ => rfl | ⟨1, _⟩ => rfl
  have e1 : ix10_1 (ix2 p q) = ix2 (0 : Fin 1) q := funext fun a => by match a with | ⟨0, _⟩ => rfl | ⟨1, _⟩ => rfl
  show FloatOps.addf (k0_pay2 P0 P1 P2 P3 P4 P5 P6 P7 P8 (ix10_0 (ix2 p q))) (P9 (ix10_1 (ix2 p q))) = _
  rw [e0, e1, pay2_apply]
  rfl

/-- The block entry `(p, q)` is output `q` of node `r` of the whole update, when row `p` of the four row blocks is row
    `r` of the four arrays, the three weight blocks are the three bands of `W1`, the bias rows are `b1` and `b2` and
    the last block is `W2`. -/
theorem block_is_mlp (x xl : (⟨2, ![50000, 128]⟩ : Shape).Idx → EReal) (z : (⟨2, ![50000, 64]⟩ : Shape).Idx → EReal)
    (agg : (⟨2, ![50000, 96]⟩ : Shape).Idx → EReal) (W1 : (⟨2, ![416, 512]⟩ : Shape).Idx → EReal)
    (b1 : (⟨1, ![512]⟩ : Shape).Idx → EReal) (W2 : (⟨2, ![512, 256]⟩ : Shape).Idx → EReal)
    (b2 : (⟨1, ![256]⟩ : Shape).Idx → EReal) (r : Fin 50000) (p : Fin 2000) (q : Fin 256)
    (h0 : ∀ j : Fin 128, P0 (ix2 p j) = x (ix2 r j)) (h1 : ∀ j : Fin 128, P1 (ix2 p j) = xl (ix2 r j))
    (h3 : ∀ j : Fin 64, P3 (ix2 p j) = z (ix2 r j)) (h5 : ∀ j : Fin 96, P5 (ix2 p j) = agg (ix2 r j))
    (h2 : ∀ (j : Fin 256) (k : Fin 512), P2 (ix2 j k) = W1 (ix2 (⟨j.val, by have := j.isLt; omega⟩ : Fin 416) k))
    (h4 : ∀ (j : Fin 64) (k : Fin 512), P4 (ix2 j k) = W1 (ix2 (⟨256 + j.val, by have := j.isLt; omega⟩ : Fin 416) k))
    (h6 : ∀ (j : Fin 96) (k : Fin 512), P6 (ix2 j k) = W1 (ix2 (⟨320 + j.val, by have := j.isLt; omega⟩ : Fin 416) k))
    (h7 : ∀ k : Fin 512, P7 (ix2 (0 : Fin 1) k) = b1 (ix1 k)) (h8 : ∀ k : Fin 512, P8 (ix2 k q) = W2 (ix2 k q))
    (h9 : P9 (ix2 (0 : Fin 1) q) = b2 (ix1 q)) :
    E10 P0 P1 P2 P3 P4 P5 P6 P7 P8 P9 (ix2 p q) = Cert.Mlp.mlp x xl z agg W1 b1 W2 b2 (ix2 r q) := by
  rw [block_apply]
  unfold Cert.Mlp.mlp
  simp only [h0, h1, h2, h3, h4, h5, h6, h7, h8, h9]

end Cert.KernelIdeal.Point

end
-- ==== Proof.KernelArray.lean ====
/-
  From the blocks to the whole array.

  The grid has 25 points. Point `t` holds rows `2000·t … 2000·t + 1999` of the four row arrays and writes the same rows of
  the result; the weights and biases are held whole at every point. Before the launch the host prepares the edge sum (a
  scatter of the edge attributes into zero rows), cuts `W1` into its three bands of rows and gives each bias a leading
  axis of extent one. So entry `(p, q)` of what point `t` writes back is output `q` of node `2000·t + p` of `mlp` of the
  arguments — every written block is the restriction of one whole-array function — and, since row `r` lies in the block
  of point `r / 2000`, the blocks cover the result array, which therefore ends holding that function.
-/
import proofs.«116554_j50242527429369_2_alg».proof.Proof.Gen.KernelIdeal.Value
import proofs.«116554_j50242527429369_2_alg».proof.Proof.KernelPoint
import Idealize.ShloMosaic.Lib.StableHlo.Run

noncomputable section

namespace Cert.KernelIdeal.Array

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open scoped BigOperators

/-- The block index of every window at every grid point, decided over the 25 points: the four row windows and the
    result window are at block `(t, 0)`, the six whole windows at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- The edge sum as the host computes it before the launch: the attributes of all edges scattered, with addition, into
    50000 zero rows at the node each edge's first index names. It is carried as one array and never opened. -/
def edgeSum (e : (⟨S800000x96, .f32⟩ : BufTy).Contents (Elt Ideal)) (ei : (⟨S2x800000, .i32⟩ : BufTy).Contents (Elt Ideal)) :
    (⟨S50000x96, .f32⟩ : BufTy).Contents (Elt Ideal) :=
  Host.scatterAdd (F := Ideal) scatter_S50000x96_S800000x1_S800000x96_1_0_0_1
    (broadcastInDim S50000x96 ![] bcast_S_S50000x96 (constant (F := Ideal) S_ .f32 0x00000000#32))
    (broadcastInDim S800000x1 ![0] bcast_S800000_S800000x1_0
      (shapeCast S800000 (extractStridedSlice S1x800000 ![0, 0] ei slices_S2x800000_S1x800000_0_0) shapeCasts_S1x800000_S800000))
    e

variable (m : (ℓ : Loc nD τ sig) → Buf (Elt Ideal) ℓ) (c : Dev nD)

/-! ## What the host wrote into the windows it prepared -/

theorem V_v4 : (V m c main_v4 : S50000x96.Idx → EReal) = edgeSum (m ((c : Thread nD τ).loc main_arg3)) (m ((c : Thread nD τ).loc main_arg4)) := by
  dsimp only [Gen.V, Gen.hostOps0]; after_results <;> rfl

theorem V_v5 : (V m c main_v5 : S256x512.Idx → EReal)
    = extractStridedSlice S256x512 ![0, 0] (m ((c : Thread nD τ).loc main_arg5)) slices_S416x512_S256x512_0_0 := by
  dsimp only [Gen.V, Gen.hostOps0]; after_results <;> rfl

theorem V_v6 : (V m c main_v6 : S64x512.Idx → EReal)
    = extractStridedSlice S64x512 ![256, 0] (m ((c : Thread nD τ).loc main_arg5)) slices_S416x512_S64x512_256_0 := by
  dsimp only [Gen.V, Gen.hostOps0]; after_results <;> rfl

theorem V_v7 : (V m c main_v7 : S96x512.Idx → EReal)
    = extractStridedSlice S96x512 ![320, 0] (m ((c : Thread nD τ).loc main_arg5)) slices_S416x512_S96x512_320_0 := by
  dsimp only [Gen.V, Gen.hostOps0]; after_results <;> rfl

theorem V_v8 : (V m c main_v8 : S1x512.Idx → EReal) = shapeCast S1x512 (m ((c : Thread nD τ).loc main_arg6)) shapeCasts_S512_S1x512 := by
  dsimp only [Gen.V, Gen.hostOps0]; after_results <;> rfl

theorem V_v9 : (V m c main_v9 : S1x256.Idx → EReal) = shapeCast S1x256 (m ((c : Thread nD τ).loc main_arg8)) shapeCasts_S256_S1x256 := by
  dsimp only [Gen.V, Gen.hostOps0]; after_results <;> rfl

/-- Row `j` of the first band is row `j` of `W1`, -/
theorem band_a (j : Fin 256) (k : Fin 512) :
    V m c main_v5 (ix2 j k) = (m ((c : Thread nD τ).loc main_arg5)) (ix2 (⟨j.val, by have := j.isLt; omega⟩ : Fin 416) k) :=
  (congrFun (V_v5 m c) (ix2 j k)).trans (extractStridedSlice_apply ![0, 0] _ slices_S416x512_S256x512_0_0 (ix2 j k)
    (ix2 (⟨j.val, by have := j.isLt; omega⟩ : Fin 416) k) (fun a => match a with
      | ⟨0, _⟩ => by show j.val = 0 + j.val; omega
      | ⟨1, _⟩ => by show k.val = 0 + k.val; omega))

/-- row `j` of the second band is row `256 + j`, -/
theorem band_b (j : Fin 64) (k : Fin 512) :
    V m c main_v6 (ix2 j k) = (m ((c : Thread nD τ).loc main_arg5)) (ix2 (⟨256 + j.val, by have := j.isLt; omega⟩ : Fin 416) k) :=
  (congrFun (V_v6 m c) (ix2 j k)).trans (extractStridedSlice_apply ![256, 0] _ slices_S416x512_S64x512_256_0 (ix2 j k)
    (ix2 (⟨256 + j.val, by have := j.isLt; omega⟩ : Fin 416) k) (fun a => match a with
      | ⟨0, _⟩ => by show 256 + j.val = 256 + j.val; rfl
      | ⟨1, _⟩ => by show k.val = 0 + k.val; omega))

/-- and row `j` of the third band is row `320 + j`. -/
theorem band_c (j : Fin 96) (k : Fin 512) :
    V m c main_v7 (ix2 j k) = (m ((c : Thread nD τ).loc main_arg5)) (ix2 (⟨320 + j.val, by have := j.isLt; omega⟩ : Fin 416) k) :=
  (congrFun (V_v7 m c) (ix2 j k)).trans (extractStridedSlice_apply ![320, 0] _ slices_S416x512_S96x512_320_0 (ix2 j k)
    (ix2 (⟨320 + j.val, by have := j.isLt; omega⟩ : Fin 416) k) (fun a => match a with
      | ⟨0, _⟩ => by show 320 + j.val = 320 + j.val; rfl
      | ⟨1, _⟩ => by show k.val = 0 + k.val; omega))

/-- The first bias with a leading unit axis, at `(0, k)`, is its entry `k`; -/
theorem bias1 (k : Fin 512) : V m c main_v8 (ix2 (0 : Fin 1) k) = (m ((c : Thread nD τ).loc main_arg6)) (ix1 k) :=
  (congrFun (V_v8 m c) (ix2 (0 : Fin 1) k)).trans (shapeCast_apply _ shapeCasts_S512_S1x512 (ix2 (0 : Fin 1) k) (ix1 k)
    (by rw [Shape.rowMajor_val_one, Shape.rowMajor_val_two]; show k.val = 0 * 512 + k.val; omega))

/-- likewise the second. -/
theorem bias2 (q : Fin 256) : V m c main_v9 (ix2 (0 : Fin 1) q) = (m ((c : Thread nD τ).loc main_arg8)) (ix1 q) :=
  (congrFun (V_v9 m c) (ix2 (0 : Fin 1) q)).trans (shapeCast_apply _ shapeCasts_S256_S1x256 (ix2 (0 : Fin 1) q) (ix1 q)
    (by rw [Shape.rowMajor_val_one, Shape.rowMajor_val_two]; show q.val = 0 * 256 + q.val; omega))

/-! ## Where each window's block sits in its array -/

theorem blk0 (t : Fin cfg0.N) (p : Fin 2000) (j : Fin 128) (hp : 2000 * t.val + p.val < 50000) :
    iblk m c 0 t (ix2 p j) = V m c main_arg0 (ix2 (⟨2000 * t.val + p.val, hp⟩ : Fin 50000) j) := by
  show V m c main_arg0 (((cfg0.win 0).blk t).view.emb (ix2 p j)) = _
  obtain ⟨e0, e1, e2, e3, e4, e5, e6, e7, -⟩ := idx_facts t
  refine congrArg (V m c main_arg0) (funext fun a => Fin.ext ?_)
  match a with
  | ⟨0, _⟩ => show win0_0.index t (0 : Fin 2) * 2000 + 1 * p.val = 2000 * t.val + p.val; omega
  | ⟨1, _⟩ => show win0_0.index t (1 : Fin 2) * 128 + 1 * j.val = j.val; omega

theorem blk1 (t : Fin cfg0.N) (p : Fin 2000) (j : Fin 128) (hp : 2000 * t.val + p.val < 50000) :
    iblk m c 1 t (ix2 p j) = V m c main_arg1 (ix2 (⟨2000 * t.val + p.val, hp⟩ : Fin 50000) j) := by
  show V m c main_arg1 (((cfg0.win 1).blk t).view.emb (ix2 p j)) = _
  obtain ⟨e0, e1, e2, e3, e4, e5, e6, e7, -⟩ := idx_facts t
  refine congrArg (V m c main_arg1) (funext fun a => Fin.ext ?_)
  match a with
  | ⟨0, _⟩ => show win0_1.index t (0 : Fin 2) * 2000 + 1 * p.val = 2000 * t.val + p.val; omega
  | ⟨1, _⟩ => show win0_1.index t (1 : Fin 2) * 128 + 1 * j.val = j.val; omega

theorem blk2 (t : Fin cfg0.N) (p : Fin 2000) (j : Fin 64) (hp : 2000 * t.val + p.val < 50000) :
    iblk m c 2 t (ix2 p j) = V m c main_arg2 (ix2 (⟨2000 * t.val + p.val, hp⟩ : Fin 50000) j) := by
  show V m c main_arg2 (((cfg0.win 2).blk t).view.emb (ix2 p j)) = _
  obtain ⟨e0, e1, e2, e3, e4, e5, e6, e7, -⟩ := idx_facts t
  refine congrArg (V m c main_arg2) (funext fun a => Fin.ext ?_)
  match a with
  | ⟨0, _⟩ => show win0_2.index t (0 : Fin 2) * 2000 + 1 * p.val = 2000 * t.val + p.val; omega
  | ⟨1, _⟩ => show win0_2.index t (1 : Fin 2) * 64 + 1 * j.val = j.val; omega

/-- Window 3's block at point `t`, read off ANY array of its shape: entry `(p, j)` is the array's entry
    `(2000·t + p, j)`. -/
theorem read3 (A : S50000x96.Idx → EReal) (t : Fin cfg0.N) (p : Fin 2000) (j : Fin 96) (hp : 2000 * t.val + p.val < 50000) :
    ((cfg0.win 3).blk t).view.read (Elt Ideal) A (ix2 p j) = A (ix2 (⟨2000 * t.val + p.val, hp⟩ : Fin 50000) j) := by
  rw [View.read_apply]
  obtain ⟨e0, e1, e2, e3, e4, e5, e6, e7, -⟩ := idx_facts t
  refine congrArg A (funext fun a => Fin.ext ?_)
  match a with
  | ⟨0, _⟩ => show win0_3.index t (0 : Fin 2) * 2000 + 1 * p.val = 2000 * t.val + p.val; omega
  | ⟨1, _⟩ => show win0_3.index t (1 : Fin 2) * 96 + 1 * j.val = j.val; omega

/-- The array window 3 stages is the edge sum. -/
theorem V_win3 : (V m c (Pipeline.arrRef spec0 3) : S50000x96.Idx → EReal)
    = edgeSum (m ((c : Thread nD τ).loc main_arg3)) (m ((c : Thread nD τ).loc main_arg4)) := V_v4 m c

theorem blk3 (t : Fin cfg0.N) (p : Fin 2000) (j : Fin 96) (hp : 2000 * t.val + p.val < 50000) :
    iblk m c 3 t (ix2 p j)
      = edgeSum (m ((c : Thread nD τ).loc main_arg3)) (m ((c : Thread nD τ).loc main_arg4)) (ix2 (⟨2000 * t.val + p.val, hp⟩ : Fin 50000) j) :=
  (read3 (V m c (Pipeline.arrRef spec0 3)) t p j hp).trans (congrFun (V_win3 m c) _)
theorem blk4 (t : Fin cfg0.N) (j : Fin 256) (k : Fin 512) :
    iblk m c 4 t (ix2 j k) = V m c main_v5 (ix2 j k) := by
  show V m c main_v5 (((cfg0.win 4).blk t).view.emb (ix2 j k)) = _
  obtain ⟨-, -, -, -, -, -, -, -, e8, e9, e10, e11, e12, e13, e14, e15, e16, e17, e18, e19, -⟩ := idx_facts t
  refine congrArg (V m c main_v5) (funext fun a => Fin.ext ?_)
  match a with
  | ⟨0, _⟩ => show win0_4.index t (0 : Fin 2) * 256 + 1 * j.val = j.val; omega
  | ⟨1, _⟩ => show win0_4.index t (1 : Fin 2) * 512 + 1 * k.val = k.val; omega

theorem blk5 (t : Fin cfg0.N) (j : Fin 64) (k : Fin 512) :
    iblk m c 5 t (ix2 j k) = V m c main_v6 (ix2 j k) := by
  show V m c main_v6 (((cfg0.win 5).blk t).view.emb (ix2 j k)) = _
  obtain ⟨-, -, -, -, -, -, -, -, e8, e9, e10, e11, e12, e13, e14, e15, e16, e17, e18, e19, -⟩ := idx_facts t
  refine congrArg (V m c main_v6) (funext fun a => Fin.ext ?_)
  match a with
  | ⟨0, _⟩ => show win0_5.index t (0 : Fin 2) * 64 + 1 * j.val = j.val; omega
  | ⟨1, _⟩ => show win0_5.index t (1 : Fin 2) * 512 + 1 * k.val = k.val; omega

theorem blk6 (t : Fin cfg0.N) (j : Fin 96) (k : Fin 512) :
    iblk m c 6 t (ix2 j k) = V m c main_v7 (ix2 j k) := by
  show V m c main_v7 (((cfg0.win 6).blk t).view.emb (ix2 j k)) = _
  obtain ⟨-, -, -, -, -, -, -, -, e8, e9, e10, e11, e12, e13, e14, e15, e16, e17, e18, e19, -⟩ := idx_facts t
  refine congrArg (V m c main_v7) (funext fun a => Fin.ext ?_)
  match a with
  | ⟨0, _⟩ => show win0_6.index t (0 : Fin 2) * 96 + 1 * j.val = j.val; omega
  | ⟨1, _⟩ => show win0_6.index t (1 : Fin 2) * 512 + 1 * k.val = k.val; omega

theorem blk7 (t : Fin cfg0.N) (j : Fin 1) (k : Fin 512) :
    iblk m c 7 t (ix2 j k) = V m c main_v8 (ix2 j k) := by
  show V m c main_v8 (((cfg0.win 7).blk t).view.emb (ix2 j k)) = _
  obtain ⟨-, -, -, -, -, -, -, -, e8, e9, e10, e11, e12, e13, e14, e15, e16, e17, e18, e19, -⟩ := idx_facts t
  refine congrArg (V m c main_v8) (funext fun a => Fin.ext ?_)
  match a with
  | ⟨0, _⟩ => show win0_7.index t (0 : Fin 2) * 1 + 1 * j.val = j.val; omega
  | ⟨1, _⟩ => show win0_7.index t (1 : Fin 2) * 512 + 1 * k.val = k.val; omega

theorem blk8 (t : Fin cfg0.N) (j : Fin 512) (k : Fin 256) :
    iblk m c 8 t (ix2 j k) = V m c main_arg7 (ix2 j k) := by
  show V m c main_arg7 (((cfg0.win 8).blk t).view.emb (ix2 j k)) = _
  obtain ⟨-, -, -, -, -, -, -, -, e8, e9, e10, e11, e12, e13, e14, e15, e16, e17, e18, e19, -⟩ := idx_facts t
  refine congrArg (V m c main_arg7) (funext fun a => Fin.ext ?_)
  match a with
  | ⟨0, _⟩ => show win0_8.index t (0 : Fin 2) * 512 + 1 * j.val = j.val; omega
  | ⟨1, _⟩ => show win0_8.index t (1 : Fin 2) * 256 + 1 * k.val = k.val; omega

theorem blk9 (t : Fin cfg0.N) (j : Fin 1) (k : Fin 256) :
    iblk m c 9 t (ix2 j k) = V m c main_v9 (ix2 j k) := by
  show V m c main_v9 (((cfg0.win 9).blk t).view.emb (ix2 j k)) = _
  obtain ⟨-, -, -, -, -, -, -, -, e8, e9, e10, e11, e12, e13, e14, e15, e16, e17, e18, e19, -⟩ := idx_facts t
  refine congrArg (V m c main_v9) (funext fun a => Fin.ext ?_)
  match a with
  | ⟨0, _⟩ => show win0_9.index t (0 : Fin 2) * 1 + 1 * j.val = j.val; omega
  | ⟨1, _⟩ => show win0_9.index t (1 : Fin 2) * 256 + 1 * k.val = k.val; omega

/-! ## Every written block is a block of `mlp` of the arguments -/

/-- The update of all nodes as a function of the launch memory. -/
abbrev G : S50000x256.Idx → EReal :=
  Cert.Mlp.mlp (m ((c : Thread nD τ).loc main_arg0)) (m ((c : Thread nD τ).loc main_arg1)) (m ((c : Thread nD τ).loc main_arg2))
    (edgeSum (m ((c : Thread nD τ).loc main_arg3)) (m ((c : Thread nD τ).loc main_arg4)))
    (m ((c : Thread nD τ).loc main_arg5)) (m ((c : Thread nD τ).loc main_arg6)) (m ((c : Thread nD τ).loc main_arg7)) (m ((c : Thread nD τ).loc main_arg8))

theorem hz : (![0, 0] : Fin 2 → Nat) = fun _ => 0 := funext fun a => by fin_cases a <;> rfl

/-- What point `t` writes back is block `t` of `G`. -/
theorem flushed_eq (t : Fin cfg0.N) :
    (dats m 0 c).flushed 10 t = ((cfg0.win 10).blk t).view.read (Elt Ideal) (G m c) := by
  rw [Value.flushed10]
  unfold out0_10
  funext y
  obtain ⟨p, q, rfl⟩ : ∃ (p : Fin 2000) (q : Fin 256), y = ix2 p q := ⟨y 0, y 1, eq_ix2 y⟩
  have hN : (t.val : Nat) < 25 := by have := t.isLt; have hN : cfg0.N = 25 := N_0; omega
  have hr : 2000 * t.val + p.val < 50000 := by have := p.isLt; omega
  obtain ⟨-, -, -, -, -, -, -, -, -, -, -, -, -, -, -, -, -, -, -, -, e20, e21⟩ := idx_facts t
  have hemb : ((cfg0.win 10).blk t).view.emb (ix2 p q) = ix2 (⟨2000 * t.val + p.val, hr⟩ : Fin 50000) q :=
    funext fun a => Fin.ext (by
      match a with
      | ⟨0, _⟩ => show win0_10.index t (0 : Fin 2) * 2000 + 1 * p.val = 2000 * t.val + p.val; omega
      | ⟨1, _⟩ => show win0_10.index t (1 : Fin 2) * 256 + 1 * q.val = q.val; omega)
  rw [View.read_apply, hemb]
  refine (Value.canon10_eq (View.ld (iblk m c 0 t) r0_0) (View.ld (iblk m c 1 t) r0_0) (View.ld (iblk m c 4 t) r0_1)
    (View.ld (iblk m c 2 t) r0_2) (View.ld (iblk m c 5 t) r0_3) (View.ld (iblk m c 3 t) r0_4) (View.ld (iblk m c 6 t) r0_5)
    (View.ld (iblk m c 7 t) r0_6) (View.ld (iblk m c 8 t) r0_7) (View.ld (iblk m c 9 t) r0_8) (ix2 p q)).trans ?_
  simp only [View.ld_unit_zero (S := S2000x128) hz, View.ld_unit_zero (S := S256x512) hz, View.ld_unit_zero (S := S2000x64) hz,
    View.ld_unit_zero (S := S64x512) hz, View.ld_unit_zero (S := S2000x96) hz, View.ld_unit_zero (S := S96x512) hz,
    View.ld_unit_zero (S := S1x512) hz, View.ld_unit_zero (S := S512x256) hz, View.ld_unit_zero (S := S1x256) hz]
  exact Cert.KernelIdeal.Point.block_is_mlp (iblk m c 0 t) (iblk m c 1 t) (iblk m c 4 t) (iblk m c 2 t) (iblk m c 5 t)
    (iblk m c 3 t) (iblk m c 6 t) (iblk m c 7 t) (iblk m c 8 t) (iblk m c 9 t)
    (m ((c : Thread nD τ).loc main_arg0)) (m ((c : Thread nD τ).loc main_arg1)) (m ((c : Thread nD τ).loc main_arg2))
    (edgeSum (m ((c : Thread nD τ).loc main_arg3)) (m ((c : Thread nD τ).loc main_arg4)))
    (m ((c : Thread nD τ).loc main_arg5)) (m ((c : Thread nD τ).loc main_arg6)) (m ((c : Thread nD τ).loc main_arg7)) (m ((c : Thread nD τ).loc main_arg8))
    (⟨2000 * t.val + p.val, hr⟩ : Fin 50000) p q
    (fun j => (blk0 m c t p j hr).trans (congrFun (V_main_arg0 m c) _))
    (fun j => (blk1 m c t p j hr).trans (congrFun (V_main_arg1 m c) _))
    (fun j => (blk2 m c t p j hr).trans (congrFun (V_main_arg2 m c) _))
    (fun j => blk3 m c t p j hr)
    (fun j k => (blk4 m c t j k).trans (band_a m c j k))
    (fun j k => (blk5 m c t j k).trans (band_b m c j k))
    (fun j k => (blk6 m c t j k).trans (band_c m c j k))
    (fun k => (blk7 m c t 0 k).trans (bias1 m c k))
    (fun k => (blk8 m c t k q).trans (congrFun (V_main_arg7 m c) _))
    ((blk9 m c t 0 q).trans (bias2 m c q))

/-! ## The blocks cover the result -/

/-- An index of the result is in point `t`'s block iff each coordinate is in the block's range on its axis. -/
theorem mem_blk (t : Fin cfg0.N) (i : S50000x256.Idx) :
    i ∈ ((cfg0.win 10).blk t).view.set ↔ ∀ a : Fin 2, win0_10.index t a * S2000x256.size a ≤ (i a).val
      ∧ (i a).val < win0_10.index t a * S2000x256.size a + S2000x256.size a := by
  show i ∈ ((View.whole main_v10).slice (win0_10.rect t)).set ↔ _
  rw [View.set_slice_whole, Rect.mem_set_unit]
  exact Iff.rfl

/-- Row `r` of the result lies in the block of point `r / 2000`. -/
theorem cover (i : S50000x256.Idx) :
    ∃ t : Fin cfg0.N, (cfg0.win 10).flush t = true ∧ i ∈ ((cfg0.win 10).blk t).view.set := by
  have hi0 : (i 0).val < 50000 := (i 0).isLt
  have hi1 : (i 1).val < 256 := (i 1).isLt
  have hN : cfg0.N = 25 := N_0
  have ht : (i 0).val / 2000 < cfg0.N := by rw [hN]; omega
  refine ⟨⟨(i 0).val / 2000, ht⟩, flush0_10 _, ?_⟩
  rw [mem_blk]
  obtain ⟨-, -, -, -, -, -, -, -, -, -, -, -, -, -, -, -, -, -, -, -, e20, e21⟩ := idx_facts ⟨(i 0).val / 2000, ht⟩
  have e20' : win0_10.index ⟨(i 0).val / 2000, ht⟩ (0 : Fin 2) = (i 0).val / 2000 := e20
  intro a
  match a with
  | ⟨0, _⟩ =>
    show win0_10.index ⟨(i 0).val / 2000, ht⟩ (0 : Fin 2) * 2000 ≤ (i 0).val
      ∧ (i 0).val < win0_10.index ⟨(i 0).val / 2000, ht⟩ (0 : Fin 2) * 2000 + 2000
    omega
  | ⟨1, _⟩ =>
    show win0_10.index ⟨(i 0).val / 2000, ht⟩ (1 : Fin 2) * 256 ≤ (i 1).val
      ∧ (i 1).val < win0_10.index ⟨(i 0).val / 2000, ht⟩ (1 : Fin 2) * 256 + 256
    omega

/-- The result array after the run is `G`. -/
theorem final : (dats m 0 c).arrAt 10 cfg0.N = G m c :=
  (dats m 0 c).arrAt_eq_of_cover 10 (G m c) (fun t _ => flushed_eq m c t) cover

/-- The kernel's run: every weakly fair execution terminates with the result at `G` of the launch memory and the
    arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v10) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Array

end
-- ==== Proof.lean ====
/-
  A node update of a graph network, computed block by block, against its textbook form.

  Both programs first sum, for every node, the attributes of the edges whose first index is that node (the same scatter
  of the same arrays into zero rows), and then apply a two-layer perceptron to the node's four feature rows laid side by
  side: `out = max (cat · W1 + b1) 0 · W2 + b2`. The reference forms the joined [50000, 416] array and multiplies it by
  `W1` whole. The kernel works on 2000 nodes at a time and never forms the join: it multiplies the two 128-wide rows,
  joined, by rows 0–255 of `W1`, the 64-wide row by rows 256–319 and the 96-wide row by rows 320–415, and adds the three
  products. On the extended reals a change of float format is the identity and every product is an exact sum, so the two
  agree because a sum over the 416 joined columns is the sum of the sums over its four stretches — addition there is
  commutative and associative, and no entry has to be finite for that.

  Proof/MlpSpec.lean states the update as one function `mlp` of the arrays; Proof/RefJoined.lean shows the reference
  computes it; Proof/KernelPoint.lean shows each block the kernel writes is a block of it; Proof/KernelArray.lean shows
  the 25 blocks cover the result. Here the two runs are set side by side. The idealized kernel is the kernel's own text
  read over the extended reals (no operation was rewritten), so there is nothing to preserve beyond that.
-/
import proofs.«116554_j50242527429369_2_alg».proof.Defs
import proofs.«116554_j50242527429369_2_alg».proof.Proof.Gen.Kernel
import proofs.«116554_j50242527429369_2_alg».proof.Proof.Gen.Kernel.Skeleton
import proofs.«116554_j50242527429369_2_alg».proof.Proof.Gen.Kernel.Launch
import proofs.«116554_j50242527429369_2_alg».proof.Proof.Gen.Kernel.Points
import proofs.«116554_j50242527429369_2_alg».proof.Proof.Gen.Kernel.Frame
import proofs.«116554_j50242527429369_2_alg».proof.Proof.Gen.KernelIdeal
import proofs.«116554_j50242527429369_2_alg».proof.Proof.Gen.KernelIdeal.Skeleton
import proofs.«116554_j50242527429369_2_alg».proof.Proof.Gen.KernelIdeal.Launch
import proofs.«116554_j50242527429369_2_alg».proof.Proof.Gen.KernelIdeal.Points
import proofs.«116554_j50242527429369_2_alg».proof.Proof.Gen.KernelIdeal.Frame
import proofs.«116554_j50242527429369_2_alg».proof.Proof.Gen.ReferenceIdeal
import proofs.«116554_j50242527429369_2_alg».proof.Proof.Gen.Pre_finite_inputs
import proofs.«116554_j50242527429369_2_alg».proof.Proof.Gen.KernelIdeal.Value
import proofs.«116554_j50242527429369_2_alg».proof.Proof.Gen.ReferenceIdeal.Run
import proofs.«116554_j50242527429369_2_alg».proof.Proof.Gen.ReferenceIdeal.Read
import proofs.«116554_j50242527429369_2_alg».proof.Proof.RefJoined
import proofs.«116554_j50242527429369_2_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The two programs' edge sums are one function of the edge attributes and the edge indices: the same scatter into
    the same zero rows. -/
theorem edgeSum_eq (e : (⟨Cert.KernelIdeal.S800000x96, .f32⟩ : BufTy).Contents (Elt Ideal))
    (ei : (⟨Cert.KernelIdeal.S2x800000, .i32⟩ : BufTy).Contents (Elt Ideal)) :
    Cert.ReferenceIdeal.Read.val_main_v4 (F := Ideal) e ei = Cert.KernelIdeal.Array.edgeSum e ei := rfl

/-- From memories that agree on the arguments both programs end with the result at `mlp` of the arguments: the kernel
    because its 25 blocks are blocks of that function and cover the array, the reference because its sum over the 416
    joined columns splits into the four rows' sums. -/
theorem algebraic : Cert.algebraic_KernelIdeal_ReferenceIdeal := by
  intro m ρ m' ρ' _ hagree
  refine ⟨fun c => Cert.KernelIdeal.Array.G m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq, edgeSum_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
